-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x32 : Shape := ⟨2, ![512, 32]⟩
abbrev S32x16 : Shape := ⟨2, ![32, 16]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  main_v18

def fn {F : FTy → Type} [FloatOps F] (main_arg0 : FVec F S100000x512 .f32) (main_arg1 : FVec F S512x32 .f32) (main_arg2 : FVec F S32x16 .f32) (main_arg3 : IVec S3200000 32) (main_arg4 : IVec S3200000 32) (main_arg5 : FVec F S3200000 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S3200000 .f32 := Host.absf main_arg5
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_v13 main_v16
-- ==== Kernel.lean ====
abbrev S100000x512 : Shape := ⟨2, ![100000, 512]⟩
abbrev S512x32 : Shape := ⟨2, ![512, 32]⟩
abbrev S32x16 : Shape := ⟨2, ![32, 16]⟩
abbrev S3200000 : Shape := ⟨1, ![3200000]⟩
abbrev S100000x32 : Shape := ⟨2, ![100000, 32]⟩
abbrev S2000x512 : Shape := ⟨2, ![2000, 512]⟩
abbrev S2000x32 : Shape := ⟨2, ![2000, 32]⟩
abbrev S3200000x1 : Shape := ⟨2, ![3200000, 1]⟩
abbrev S_ : Shape := ⟨0, ![]⟩
abbrev S3200000x32 : Shape := ⟨2, ![3200000, 32]⟩
abbrev S100000x16 : Shape := ⟨2, ![100000, 16]⟩
abbrev S2000x16 : Shape := ⟨2, ![2000, 16]⟩
abbrev S3200000x16 : Shape := ⟨2, ![3200000, 16]⟩
abbrev S2000 : Shape := ⟨1, ![2000]⟩
abbrev S2000x1 : Shape := ⟨2, ![2000, 1]⟩

abbrev nBuf : Space → Nat
  | .hbm => 41
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S512x32, .f32⟩
  | .hbm, ⟨2, _⟩ => ⟨S32x16, .f32⟩
  | .hbm, ⟨3, _⟩ => ⟨S3200000, .i32⟩
  | .hbm, ⟨4, _⟩ => ⟨S3200000, .i32⟩
  | .hbm, ⟨5, _⟩ => ⟨S3200000, .f32⟩
  | .hbm, ⟨6, _⟩ => ⟨S100000x32, .f32⟩
  | .hbm, ⟨7, _⟩ => ⟨S3200000x1, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x32, .f32⟩
  | .hbm, ⟨17, _⟩ => ⟨S3200000x32, .f32⟩
  | .hbm, ⟨18, _⟩ => ⟨S3200000x32, .f32⟩
  | .hbm, ⟨19, _⟩ => ⟨S_, .f32⟩
  | .hbm, ⟨20, _⟩ => ⟨S100000x32, .f32⟩
  | .hbm, ⟨21, _⟩ => ⟨S3200000x1, .i32⟩
  | .hbm, ⟨22, _⟩ => ⟨S100000x32, .f32⟩
  | .hbm, ⟨23, _⟩ => ⟨S100000x16, .f32⟩
  | .hbm, ⟨24, _⟩ => ⟨S3200000x1, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x16, .f32⟩
  | .hbm, ⟨34, _⟩ => ⟨S3200000x16, .f32⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S32x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S2000x32_S2000x32_0_0 : ∀ a, (![0, 0] : Fin 2 → Nat) a + S2000x32.size a ≤ S2000x32.size a
  h_S2000x32 : 0 < S2000x32.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S2000x32_S2000x32 : S2000x32.ShapeCasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S2000x16_S2000x16 : S2000x16.ShapeCasts S2000x16
  reduces_S2000x16_S2000 : S2000x16.Reduces [1] S2000
  shapeCasts_S2000_S2000x1 : S2000.ShapeCasts S2000x1
  broadcasts_S2000x1_S2000x16 : S2000x1.Broadcasts S2000x16
  dot_S2000x512_S512x32_S2000x32_1_0_0_1_n_n_wf : DotDims.WF S2000x512 S512x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x16_S2000x16_1_0_0_1_n_n_wf : DotDims.WF S2000x32 S32x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x16.size a ≤ S100000x16.size a
  hwx2_1 : ∀ i : grid2.Coords, EltTy.bits .f32 = 32 ∨ (Rect.block (s := S100000x16) S2000x16.size (cc2_transform_1 i) (hinb2_1 i)).WholeWords (EltTy.packing .f32)

variable [Facts₀]

def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x32 : Shape := ⟨2, ![512, 32]⟩
abbrev S32x16 : Shape := ⟨2, ![32, 16]⟩
abbrev S3200000 : Shape := ⟨1, ![3200000]⟩
abbrev S100000x32 : Shape := ⟨2, ![100000, 32]⟩
abbrev S3200000x1 : Shape := ⟨2, ![3200000, 1]⟩
abbrev S_ : Shape := ⟨0, ![]⟩
abbrev S3200000x32 : Shape := ⟨2, ![3200000, 32]⟩
abbrev S100000x16 : Shape := ⟨2, ![100000, 16]⟩
abbrev S3200000x16 : Shape := ⟨2, ![3200000, 16]⟩
abbrev S100000 : Shape := ⟨1, ![100000]⟩
abbrev S100000x1 : Shape := ⟨2, ![100000, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x32, .f32⟩
  | .hbm, ⟨2, _⟩ => ⟨S32x16, .f32⟩
  | .hbm, ⟨3, _⟩ => ⟨S3200000, .i32⟩
  | .hbm, ⟨4, _⟩ => ⟨S3200000, .i32⟩
  | .hbm, ⟨5, _⟩ => ⟨S3200000, .f32⟩
  | .hbm, ⟨6, _⟩ => ⟨S100000x32, .f32⟩
  | .hbm, ⟨7, _⟩ => ⟨S3200000x1, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x32, .f32⟩
  | .hbm, ⟨17, _⟩ => ⟨S3200000x32, .f32⟩
  | .hbm, ⟨18, _⟩ => ⟨S3200000x32, .f32⟩
  | .hbm, ⟨19, _⟩ => ⟨S_, .f32⟩
  | .hbm, ⟨20, _⟩ => ⟨S100000x32, .f32⟩
  | .hbm, ⟨21, _⟩ => ⟨S3200000x1, .i32⟩
  | .hbm, ⟨22, _⟩ => ⟨S100000x32, .f32⟩
  | .hbm, ⟨23, _⟩ => ⟨S_, .f32⟩
  | .hbm, ⟨24, _⟩ => ⟨S100000x32, .f32⟩
  | .hbm, ⟨25, _⟩ => ⟨S100000x32, .f32⟩
  | .hbm, ⟨26, _⟩ => ⟨S100000x16, .f32⟩
  | .hbm, ⟨27, _⟩ => ⟨S3200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x16, .f32⟩
  | .hbm, ⟨37, _⟩ => ⟨S3200000x16, .f32⟩
  | .hbm, ⟨38, _⟩ => ⟨S3200000x16, .f32⟩
  | .hbm, ⟨39, _⟩ => ⟨S_, .f32⟩
  | .hbm, ⟨40, _⟩ => ⟨S100000x16, .f32⟩
  | .hbm, ⟨41, _⟩ => ⟨S3200000x1, .i32⟩
  | .hbm, ⟨42, _⟩ => ⟨S100000x16, .f32⟩
  | .hbm, ⟨43, _⟩ => ⟨S100000x16, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x16, .f32⟩
  | .hbm, ⟨52, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  dot_S100000x512_S512x32_S100000x32_1_0_0_1_n_n_wf : DotDims.WF S100000x512 S512x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KernelRun.lean ====
/-
  The idealized kernel's run with its result named.

  The program is three kernel launches with two stretches of host operations between them. Its buffers at each
  boundary are a fold from the launch memory: a launch leaves its arrays at what its write-backs assemble, a host
  stretch leaves the results of its operations. Every weakly fair execution terminates, nothing faulting, with the
  result buffer at the last boundary's contents and the argument arrays as launched.
-/
import proofs.«146616_j11510512353896_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer holding the last boundary's contents, and the arguments
    as launched. -/
theorem run_result : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Payloads.lean ====
/-
  What each kernel body stores, read at a row `p` and a column `q` of its block, on the extended reals.

  The first body multiplies its `[2000, 512]` block of features by the whole weight matrix; the second rectifies its
  `[2000, 32]` block and multiplies it by the second weight matrix; the third divides each row of its `[2000, 16]` block
  by the larger of the row's length and a small positive float. A change of float format is the identity here, and a
  product into a zero accumulator is the plain sum of products.
-/
import proofs.«146616_j11510512353896_2_alg».proof.Proof.Gen.KernelIdeal.Skeleton
import proofs.«146616_j11510512353896_2_alg».proof.Proof.LibPlainDot
import proofs.«146616_j11510512353896_2_alg».proof.Proof.LibRows
import proofs.«146616_j11510512353896_2_alg».proof.Proof.LibLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx
open scoped BigOperators

/-- The first body's store at `(p, q)`: the sum over `k` of `x0 (p, k) · x1 (k, q)`. -/
theorem matmul_block_apply (x0 : Vec Ideal S2000x512 .f32) (x1 : Vec Ideal S512x32 .f32) (p : Fin 2000) (q : Fin 32) :
    k0_pay1 x0 x1 (ix2 p q) = ∑ k : Fin 512, x0 (ix2 p k) * x1 (ix2 k q) := by
  unfold k0_pay1
  exact Cert.LibPlainDot.matmul_plain_apply dot_S2000x512_S512x32_S2000x32_1_0_0_1_n_n rfl rfl rfl rfl rfl rfl none _ _ p q

/-- The second body's store at `(p, q)`: the sum over `k` of `max (x0 (p, k)) 0 · x1 (k, q)`. -/
theorem relu_matmul_block_apply (x0 : Vec Ideal S2000x32 .f32) (x1 : Vec Ideal S32x16 .f32) (p : Fin 2000) (q : Fin 16) :
    k1_pay1 x0 x1 (ix2 p q)
      = ∑ k : Fin 32, max (x0 (ix2 p k)) (Ideal.ofBits .f32 0x00000000#32) * x1 (ix2 k q) := by
  have e : shapeCast S2000x32 x0 shapeCasts_S2000x32_S2000x32 = x0 := shapeCast_self _ _
  unfold k1_pay1
  rw [e]
  exact Cert.LibPlainDot.matmul_plain_apply dot_S2000x32_S32x16_S2000x16_1_0_0_1_n_n rfl rfl rfl rfl rfl rfl none _ _ p q

/-- A row's length clamped below, as the third body computes it over any `[2000, 16]` array: the square root of the
    row's sum of squares, or the clamp if that is larger, repeated along the row. -/
theorem clamped_length_apply (v : FVec Ideal S2000x16 .f32) (w : BitVec 32) (p : Fin 2000) (q : Fin 16) :
    broadcastTo S2000x16
        (maximumf (sqrt (shapeCast S2000x1
            (multiReduction .add [1] S2000 (mulf v v) 0x00000000#32 reduces_S2000x16_S2000 (.inl rfl) rfl)
            shapeCasts_S2000_S2000x1))
          (broadcast S2000x1 (Scalar.ofBits (F := Ideal) .f32 w)))
        broadcasts_S2000x1_S2000x16 (ix2 p q)
      = max (Ideal.sqrt (∑ j : Fin 16, v (ix2 p j) * v (ix2 p j))) (Ideal.ofBits .f32 w) := by
  refine (broadcastTo_a1_ab_apply _ broadcasts_S2000x1_S2000x16 p q).trans ?_
  rw [maximumf_apply, broadcast_apply]
  refine congrArg (fun u => max (Ideal.sqrt u) _) ?_
  refine (shapeCast_a_a1_apply _ shapeCasts_S2000_S2000x1 p (0 : Fin 1)).trans ?_
  exact rowSum_apply (mulf v v) 0x00000000#32 reduces_S2000x16_S2000 (.inl rfl) rfl p

/-- The third body's store at `(p, q)`: `x0 (p, q)` over the larger of row `p`'s length and the clamp. -/
theorem row_normalize_block_apply (x0 : Vec Ideal S2000x16 .f32) (p : Fin 2000) (q : Fin 16) :
    k2_pay1 x0 (ix2 p q) = Ideal.div (x0 (ix2 p q))
      (max (Ideal.sqrt (∑ j : Fin 16, x0 (ix2 p j) * x0 (ix2 p j))) (Ideal.ofBits .f32 0x33D6BF95#32)) := by
  have e : shapeCast S2000x16 x0 shapeCasts_S2000x16_S2000x16 = x0 := shapeCast_self _ _
  unfold k2_pay1
  rw [e]
  exact congrArg (Ideal.div (x0 (ix2 p q))) (clamped_length_apply x0 0x33D6BF95#32 p q)

end Cert.KernelIdeal.Payload

end
-- ==== Proof.Spec.lean ====
/-
  The three dense stages of a two-layer graph network, index by index on the extended reals.

  `project1` multiplies the node features `[100000, 512]` by the first weight matrix `[512, 32]`; `project2` rectifies an
  aggregated `[100000, 32]` array (the maximum with the float zero) and multiplies it by the second weight matrix
  `[32, 16]`; `rowNormalize` divides every row of a `[100000, 16]` array by the larger of its Euclidean length and a
  fixed small positive float. Between them the network aggregates over the graph's edges; that part is the same text in
  both programs and is not described here.
-/
import Idealize.ShloMosaic.PureOps.Ideal
import Idealize.ShloMosaic.Lib.ValueIdx

noncomputable section

namespace Cert.GraphLayers

open Idealize.ShloMosaic Idealize.ShloMosaic.ValueIdx
open scoped BigOperators

/-- Entry `(p, q)` of features times weights: the sum over `k` of `x (p, k) · w (k, q)`. -/
def project1 (x : FVec Ideal ⟨2, ![100000, 512]⟩ .f32) (w : FVec Ideal ⟨2, ![512, 32]⟩ .f32) :
    FVec Ideal ⟨2, ![100000, 32]⟩ .f32 :=
  fun i => ∑ k : Fin 512, x (ix2 (i 0) k) * w (ix2 k (i 1))

/-- Entry `(p, q)` of the rectified array times weights: the sum over `k` of `max (z (p, k)) 0 · w (k, q)`, the zero
    being the float zero's value. -/
def project2 (z : FVec Ideal ⟨2, ![100000, 32]⟩ .f32) (w : FVec Ideal ⟨2, ![32, 16]⟩ .f32) :
    FVec Ideal ⟨2, ![100000, 16]⟩ .f32 :=
  fun i => ∑ k : Fin 32, max (z (ix2 (i 0) k)) (Ideal.ofBits .f32 0x00000000#32) * w (ix2 k (i 1))

/-- Entry `(p, q)` of the row-normalized array: `z (p, q)` divided by the larger of the length of row `p` (the square
    root of the sum of its squares) and the float nearest `1e-7`. -/
def rowNormalize (z : FVec Ideal ⟨2, ![100000, 16]⟩ .f32) : FVec Ideal ⟨2, ![100000, 16]⟩ .f32 :=
  fun i => Ideal.div (z i)
    (max (Ideal.sqrt (∑ j : Fin 16, z (ix2 (i 0) j) * z (ix2 (i 0) j))) (Ideal.ofBits .f32 0x33D6BF95#32))

theorem project1_apply (x : FVec Ideal ⟨2, ![100000, 512]⟩ .f32) (w : FVec Ideal ⟨2, ![512, 32]⟩ .f32)
    (p : Fin 100000) (q : Fin 32) : project1 x w (ix2 p q) = ∑ k : Fin 512, x (ix2 p k) * w (ix2 k q) := rfl

theorem project2_apply (z : FVec Ideal ⟨2, ![100000, 32]⟩ .f32) (w : FVec Ideal ⟨2, ![32, 16]⟩ .f32)
    (p : Fin 100000) (q : Fin 16) :
    project2 z w (ix2 p q) = ∑ k : Fin 32, max (z (ix2 p k)) (Ideal.ofBits .f32 0x00000000#32) * w (ix2 k q) := rfl

theorem rowNormalize_apply (z : FVec Ideal ⟨2, ![100000, 16]⟩ .f32) (p : Fin 100000) (q : Fin 16) :
    rowNormalize z (ix2 p q) = Ideal.div (z (ix2 p q))
      (max (Ideal.sqrt (∑ j : Fin 16, z (ix2 p j) * z (ix2 p j))) (Ideal.ofBits .f32 0x33D6BF95#32)) := rfl

end Cert.GraphLayers

end
-- ==== Proof.Region0.lean ====
/-
  The first launch: what its result array holds when it ends, at any contents `V` of the buffers it is entered from.

  The grid has 50 points. Point `t` reads rows `2000 t … 2000 t + 1999` of the feature array and the whole weight matrix,
  and writes rows `2000 t … 2000 t + 1999` of the result. A row of the block's product depends on that row of the
  features only, so each written block is the same rows of the whole product, and the 50 blocks tile the result.
-/
import proofs.«146616_j11510512353896_2_alg».proof.Proof.Gen.KernelIdeal.Frame
import proofs.«146616_j11510512353896_2_alg».proof.Proof.Payloads
import proofs.«146616_j11510512353896_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.GraphLayers
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the result's blocks move down one block of rows per point, the
    weight matrix stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the features' block at point `t` is row `2000 t + p` of the feature array. -/
theorem features_block_apply (c : Dev nD) (t : Fin cfg0.N) (p : Fin 2000) (k : Fin 512) (h : t.val * 2000 + p.val < 100000) :
    (iblk0 V c 0 t : Vec Ideal S2000x512 .f32) (ix2 p k)
      = (V c main_arg0 : FVec Ideal S100000x512 .f32) (ix2 ⟨t.val * 2000 + p.val, h⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * p.val = t.val * 2000 + p.val; rw [e0]; omega
  | ⟨1, _⟩ => show win0_0.index t 1 * 512 + 1 * k.val = k.val; rw [e1]; omega

/-- The weights' block at every point is the weight matrix. -/
theorem weights_block_apply (c : Dev nD) (t : Fin cfg0.N) (k : Fin 512) (q : Fin 32) :
    (iblk0 V c 1 t : Vec Ideal S512x32 .f32) (ix2 k q) = (V c main_arg1 : FVec Ideal S512x32 .f32) (ix2 k q) := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t 0 * 512 + 1 * k.val = k.val; rw [e2]; omega
  | ⟨1, _⟩ => show win0_1.index t 1 * 32 + 1 * q.val = q.val; rw [e3]; omega

/-- What point `t` writes back is block `t` of the whole product. -/
theorem flushed_eq (c : Dev nD) (t : Fin cfg0.N) :
    (dat0 V c).flushed 2 t
      = ((cfg0.win 2).blk t).view.read (Elt Ideal) (project1 (V c main_arg0) (V c main_arg1)) := by
  have hN : t.val < 50 := lt_of_lt_of_eq t.isLt N_0
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S2000x512) hz, View.ld_unit_zero (S := S512x32) hz]
  funext j
  have hj0 : (j 0).val < 2000 := (j 0).isLt
  have hj1 : (j 1).val < 32 := (j 1).isLt
  rw [View.read_apply]
  have hx : (cfg0.win 2).xinj (grid0.coords t) j = ix2 (⟨(j 0).val, hj0⟩ : Fin 2000) (⟨(j 1).val, hj1⟩ : Fin 32) :=
    funext fun a => Fin.ext (by match a with | ⟨0, _⟩ => rfl | ⟨1, _⟩ => rfl)
  have he : ((cfg0.win 2).blk t).view.emb j
      = ix2 (⟨t.val * 2000 + (j 0).val, by omega⟩ : Fin 100000) (⟨(j 1).val, hj1⟩ : Fin 32) :=
    funext fun a => Fin.ext (by
      match a with
      | ⟨0, _⟩ => show win0_2.index t 0 * 2000 + 1 * (j 0).val = t.val * 2000 + (j 0).val; rw [e4]; omega
      | ⟨1, _⟩ => show win0_2.index t 1 * 32 + 1 * (j 1).val = (j 1).val; rw [e5]; omega)
  show k0_pay1 (iblk0 V c 0 t) (iblk0 V c 1 t) ((cfg0.win 2).xinj (grid0.coords t) j) = _
  rw [hx, he]
  refine (Payload.matmul_block_apply _ _ _ _).trans ?_
  refine (Finset.sum_congr rfl fun k _ => ?_).trans (project1_apply _ _ _ _).symm
  rw [features_block_apply V c t _ k (by show t.val * 2000 + (j 0).val < 100000; omega), weights_block_apply V c t k _]

/-- An index of the result array is in point `t`'s block iff each coordinate is in the block's range on its axis. -/
theorem mem_blk (t : Fin cfg0.N) (i : S100000x32.Idx) :
    i ∈ ((cfg0.win 2).blk t).view.set ↔ ∀ a : Fin 2, win0_2.index t a * S2000x32.size a ≤ (i a).val
      ∧ (i a).val < win0_2.index t a * S2000x32.size a + S2000x32.size a := by
  show i ∈ ((View.whole main_v0).slice (win0_2.rect t)).set ↔ _
  rw [View.set_slice_whole, Rect.mem_set_unit]
  exact Iff.rfl

/-- Row `r` of the result is written by point `r / 2000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have ht : (i 0).val / 2000 < cfg0.N := lt_of_lt_of_eq (by omega : (i 0).val / 2000 < 50) N_0.symm
  refine ⟨⟨(i 0).val / 2000, ht⟩, flush0_2 _, ?_⟩
  rw [mem_blk]
  obtain ⟨-, -, -, -, e4, e5⟩ := idx_facts ⟨(i 0).val / 2000, ht⟩
  intro a
  match a with
  | ⟨0, _⟩ =>
    show win0_2.index ⟨(i 0).val / 2000, ht⟩ 0 * 2000 ≤ (i 0).val
      ∧ (i 0).val < win0_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ 1 * 32 ≤ (i 1).val
      ∧ (i 1).val < win0_2.index ⟨(i 0).val / 2000, ht⟩ 1 * 32 + 32
    rw [e5]; omega

/-- The result array when the launch ends: features times weights, whole. -/
theorem final (c : Dev nD) :
    (dat0 V c).arrAt 2 cfg0.N = project1 (V c main_arg0) (V c main_arg1) :=
  (dat0 V c).arrAt_eq_of_cover 2 (project1 (V c main_arg0) (V c main_arg1)) (fun t _ => flushed_eq V c t) cover

end Cert.KernelIdeal.Region0

end
-- ==== Proof.Region1.lean ====
/-
  The second launch: what its result array holds when it ends, at any contents `V` of the buffers it is entered from.

  The grid has 50 points. Point `t` reads rows `2000 t … 2000 t + 1999` of the aggregated `[100000, 32]` array and the
  whole second weight matrix, rectifies the rows and multiplies them by the matrix, and writes rows
  `2000 t … 2000 t + 1999` of the result. Each written block is the same rows of the whole rectified product, and the
  50 blocks tile the result.
-/
import proofs.«146616_j11510512353896_2_alg».proof.Proof.Gen.KernelIdeal.Frame
import proofs.«146616_j11510512353896_2_alg».proof.Proof.Payloads
import proofs.«146616_j11510512353896_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.GraphLayers
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated array's and the result's blocks move down one block of rows per
    point, the weight matrix stays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the aggregated array's block at point `t` is row `2000 t + p` of the array. -/
theorem rows_block_apply (c : Dev nD) (t : Fin cfg1.N) (p : Fin 2000) (k : Fin 32) (h : t.val * 2000 + p.val < 100000) :
    (iblk1 V c 0 t : Vec Ideal S2000x32 .f32) (ix2 p k)
      = (V c main_v13 : FVec Ideal S100000x32 .f32) (ix2 ⟨t.val * 2000 + p.val, h⟩ k) := by
  obtain ⟨e0, e1, -⟩ := idx_facts t
  unfold iblk1
  rw [View.read_apply]
  show V c main_v13 _ = V c main_v13 _
  congr 1
  funext a
  apply Fin.ext
  match a with
  | ⟨0, _⟩ => show win1_0.index t 0 * 2000 + 1 * p.val = t.val * 2000 + p.val; rw [e0]; omega
  | ⟨1, _⟩ => show win1_0.index t 1 * 32 + 1 * k.val = k.val; rw [e1]; omega

/-- The weights' block at every point is the weight matrix. -/
theorem weights_block_apply (c : Dev nD) (t : Fin cfg1.N) (k : Fin 32) (q : Fin 16) :
    (iblk1 V c 1 t : Vec Ideal S32x16 .f32) (ix2 k q) = (V c main_arg2 : FVec Ideal S32x16 .f32) (ix2 k q) := by
  obtain ⟨-, -, e2, e3, -⟩ := idx_facts t
  unfold iblk1
  rw [View.read_apply]
  show V c main_arg2 _ = V c main_arg2 _
  congr 1
  funext a
  apply Fin.ext
  match a with
  | ⟨0, _⟩ => show win1_1.index t 0 * 32 + 1 * k.val = k.val; rw [e2]; omega
  | ⟨1, _⟩ => show win1_1.index t 1 * 16 + 1 * q.val = q.val; rw [e3]; omega

/-- What point `t` writes back is block `t` of the whole rectified product. -/
theorem flushed_eq (c : Dev nD) (t : Fin cfg1.N) :
    (dat1 V c).flushed 2 t
      = ((cfg1.win 2).blk t).view.read (Elt Ideal) (project2 (V c main_v13) (V c main_arg2)) := by
  have hN : t.val < 50 := lt_of_lt_of_eq t.isLt N_1
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S2000x32) hz, View.ld_unit_zero (S := S32x16) hz]
  funext j
  have hj0 : (j 0).val < 2000 := (j 0).isLt
  have hj1 : (j 1).val < 16 := (j 1).isLt
  rw [View.read_apply]
  have hx : (cfg1.win 2).xinj (grid1.coords t) j = ix2 (⟨(j 0).val, hj0⟩ : Fin 2000) (⟨(j 1).val, hj1⟩ : Fin 16) :=
    funext fun a => Fin.ext (by match a with | ⟨0, _⟩ => rfl | ⟨1, _⟩ => rfl)
  have he : ((cfg1.win 2).blk t).view.emb j
      = ix2 (⟨t.val * 2000 + (j 0).val, by omega⟩ : Fin 100000) (⟨(j 1).val, hj1⟩ : Fin 16) :=
    funext fun a => Fin.ext (by
      match a with
      | ⟨0, _⟩ => show win1_2.index t 0 * 2000 + 1 * (j 0).val = t.val * 2000 + (j 0).val; rw [e4]; omega
      | ⟨1, _⟩ => show win1_2.index t 1 * 16 + 1 * (j 1).val = (j 1).val; rw [e5]; omega)
  show k1_pay1 (iblk1 V c 0 t) (iblk1 V c 1 t) ((cfg1.win 2).xinj (grid1.coords t) j) = _
  rw [hx, he]
  refine (Payload.relu_matmul_block_apply _ _ _ _).trans ?_
  refine (Finset.sum_congr rfl fun k _ => ?_).trans (project2_apply _ _ _ _).symm
  rw [rows_block_apply V c t _ k (by show t.val * 2000 + (j 0).val < 100000; omega), weights_block_apply V c t k _]

/-- An index of the result array is in point `t`'s block iff each coordinate is in the block's range on its axis. -/
theorem mem_blk (t : Fin cfg1.N) (i : S100000x16.Idx) :
    i ∈ ((cfg1.win 2).blk t).view.set ↔ ∀ a : Fin 2, win1_2.index t a * S2000x16.size a ≤ (i a).val
      ∧ (i a).val < win1_2.index t a * S2000x16.size a + S2000x16.size a := by
  show i ∈ ((View.whole main_v14).slice (win1_2.rect t)).set ↔ _
  rw [View.set_slice_whole, Rect.mem_set_unit]
  exact Iff.rfl

/-- Row `r` of the result is written by point `r / 2000`. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have ht : (i 0).val / 2000 < cfg1.N := lt_of_lt_of_eq (by omega : (i 0).val / 2000 < 50) N_1.symm
  refine ⟨⟨(i 0).val / 2000, ht⟩, flush1_2 _, ?_⟩
  rw [mem_blk]
  obtain ⟨-, -, -, -, e4, e5⟩ := idx_facts ⟨(i 0).val / 2000, ht⟩
  intro a
  match a with
  | ⟨0, _⟩ =>
    show win1_2.index ⟨(i 0).val / 2000, ht⟩ 0 * 2000 ≤ (i 0).val
      ∧ (i 0).val < win1_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ 1 * 16 ≤ (i 1).val
      ∧ (i 1).val < win1_2.index ⟨(i 0).val / 2000, ht⟩ 1 * 16 + 16
    rw [e5]; omega

/-- The result array when the launch ends: the rectified aggregated array times the weights, whole. -/
theorem final (c : Dev nD) :
    (dat1 V c).arrAt 2 cfg1.N = project2 (V c main_v13) (V c main_arg2) :=
  (dat1 V c).arrAt_eq_of_cover 2 (project2 (V c main_v13) (V c main_arg2)) (fun t _ => flushed_eq V c t) cover

end Cert.KernelIdeal.Region1

end
-- ==== Proof.Region2.lean ====
/-
  The third launch: what its result array holds when it ends, at any contents `V` of the buffers it is entered from.

  The grid has 50 points. Point `t` reads rows `2000 t … 2000 t + 1999` of the aggregated `[100000, 16]` array, divides
  each row by the larger of its length and a small positive float, and writes the same rows of the result. A row's
  length depends on that row only, so each written block is the same rows of the whole row-normalized array, and the
  50 blocks tile the result.
-/
import proofs.«146616_j11510512353896_2_alg».proof.Proof.Gen.KernelIdeal.Frame
import proofs.«146616_j11510512353896_2_alg».proof.Proof.Payloads
import proofs.«146616_j11510512353896_2_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.GraphLayers
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the operand's and the result's blocks move down one block of rows per point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row `p` of the operand's block at point `t` is row `2000 t + p` of the array. -/
theorem rows_block_apply (c : Dev nD) (t : Fin cfg2.N) (p : Fin 2000) (k : Fin 16) (h : t.val * 2000 + p.val < 100000) :
    (iblk2 V c 0 t : Vec Ideal S2000x16 .f32) (ix2 p k)
      = (V c main_v27 : FVec Ideal S100000x16 .f32) (ix2 ⟨t.val * 2000 + p.val, h⟩ k) := by
  obtain ⟨e0, e1, -⟩ := idx_facts t
  unfold iblk2
  rw [View.read_apply]
  show V c main_v27 _ = V c main_v27 _
  congr 1
  funext a
  apply Fin.ext
  match a with
  | ⟨0, _⟩ => show win2_0.index t 0 * 2000 + 1 * p.val = t.val * 2000 + p.val; rw [e0]; omega
  | ⟨1, _⟩ => show win2_0.index t 1 * 16 + 1 * k.val = k.val; rw [e1]; omega

/-- A block row that is row `P` of an array normalizes to row `P` of the normalized array: the body's store at
    `(p, q)` depends on the block's row `p` only. -/
theorem row_normalize_block_eq (x0 : Vec Ideal S2000x16 .f32) (A : FVec Ideal S100000x16 .f32) (p : Fin 2000)
    (P : Fin 100000) (hb : ∀ k : Fin 16, x0 (ix2 p k) = A (ix2 P k)) (q : Fin 16) :
    k2_pay1 x0 (ix2 p q) = rowNormalize A (ix2 P q) := by
  refine (Payload.row_normalize_block_apply x0 p q).trans ?_
  rw [rowNormalize_apply]
  simp only [hb]

/-- What point `t` writes back is block `t` of the whole row-normalized array. -/
theorem flushed_eq (c : Dev nD) (t : Fin cfg2.N) :
    (dat2 V c).flushed 1 t
      = ((cfg2.win 1).blk t).view.read (Elt Ideal) (rowNormalize (V c main_v27)) := by
  have hN : t.val < 50 := lt_of_lt_of_eq t.isLt N_2
  obtain ⟨-, -, e2, e3⟩ := idx_facts t
  show (cfg2.win 1).cut (grid2.coords t) ((dat2 V c).after 1 t) = _
  rw [after2_1]
  unfold out2_1
  rw [View.canon_unit_zero hz]
  simp only [View.ld_unit_zero (S := S2000x16) hz]
  funext j
  have hj0 : (j 0).val < 2000 := (j 0).isLt
  have hj1 : (j 1).val < 16 := (j 1).isLt
  rw [View.read_apply]
  have hx : (cfg2.win 1).xinj (grid2.coords t) j = ix2 (⟨(j 0).val, hj0⟩ : Fin 2000) (⟨(j 1).val, hj1⟩ : Fin 16) :=
    funext fun a => Fin.ext (by match a with | ⟨0, _⟩ => rfl | ⟨1, _⟩ => rfl)
  have he : ((cfg2.win 1).blk t).view.emb j
      = ix2 (⟨t.val * 2000 + (j 0).val, by omega⟩ : Fin 100000) (⟨(j 1).val, hj1⟩ : Fin 16) :=
    funext fun a => Fin.ext (by
      match a with
      | ⟨0, _⟩ => show win2_1.index t 0 * 2000 + 1 * (j 0).val = t.val * 2000 + (j 0).val; rw [e2]; omega
      | ⟨1, _⟩ => show win2_1.index t 1 * 16 + 1 * (j 1).val = (j 1).val; rw [e3]; omega)
  show k2_pay1 (iblk2 V c 0 t) ((cfg2.win 1).xinj (grid2.coords t) j) = _
  rw [hx, he]
  exact row_normalize_block_eq (iblk2 V c 0 t) (V c main_v27) (⟨(j 0).val, hj0⟩ : Fin 2000)
    (⟨t.val * 2000 + (j 0).val, by omega⟩ : Fin 100000)
    (fun k => rows_block_apply V c t (⟨(j 0).val, hj0⟩ : Fin 2000) k (by show t.val * 2000 + (j 0).val < 100000; omega))
    (⟨(j 1).val, hj1⟩ : Fin 16)

/-- An index of the result array is in point `t`'s block iff each coordinate is in the block's range on its axis. -/
theorem mem_blk (t : Fin cfg2.N) (i : S100000x16.Idx) :
    i ∈ ((cfg2.win 1).blk t).view.set ↔ ∀ a : Fin 2, win2_1.index t a * S2000x16.size a ≤ (i a).val
      ∧ (i a).val < win2_1.index t a * S2000x16.size a + S2000x16.size a := by
  show i ∈ ((View.whole main_v28).slice (win2_1.rect t)).set ↔ _
  rw [View.set_slice_whole, Rect.mem_set_unit]
  exact Iff.rfl

/-- Row `r` of the result is written by point `r / 2000`. -/
theorem cover (i : S100000x16.Idx) :
    ∃ t : Fin cfg2.N, (cfg2.win 1).flush t = true ∧ i ∈ ((cfg2.win 1).blk t).view.set := by
  have hi0 : (i 0).val < 100000 := (i 0).isLt
  have hi1 : (i 1).val < 16 := (i 1).isLt
  have ht : (i 0).val / 2000 < cfg2.N := lt_of_lt_of_eq (by omega : (i 0).val / 2000 < 50) N_2.symm
  refine ⟨⟨(i 0).val / 2000, ht⟩, flush2_1 _, ?_⟩
  rw [mem_blk]
  obtain ⟨-, -, e2, e3⟩ := idx_facts ⟨(i 0).val / 2000, ht⟩
  intro a
  match a with
  | ⟨0, _⟩ =>
    show win2_1.index ⟨(i 0).val / 2000, ht⟩ 0 * 2000 ≤ (i 0).val
      ∧ (i 0).val < win2_1.index ⟨(i 0).val / 2000, ht⟩ 0 * 2000 + 2000
    rw [e2]; show (i 0).val / 2000 * 2000 ≤ (i 0).val ∧ (i 0).val < (i 0).val / 2000 * 2000 + 2000; omega
  | ⟨1, _⟩ =>
    show win2_1.index ⟨(i 0).val / 2000, ht⟩ 1 * 16 ≤ (i 1).val
      ∧ (i 1).val < win2_1.index ⟨(i 0).val / 2000, ht⟩ 1 * 16 + 16
    rw [e3]; omega

/-- The result array when the launch ends: the operand, row-normalized, whole. -/
theorem final (c : Dev nD) :
    (dat2 V c).arrAt 1 cfg2.N = rowNormalize (V c main_v27) :=
  (dat2 V c).arrAt_eq_of_cover 1 (rowNormalize (V c main_v27)) (fun t _ => flushed_eq V c t) cover

end Cert.KernelIdeal.Region2

end
-- ==== Proof.Aggregate.lean ====
/-
  The aggregation over the graph's edges that both programs run between their dense stages, as one function of its
  operands: every edge `e` adds `vals e · h (cols e, ·)` onto row `rows e` of an array of zeros, a negative source
  number being counted from the last node. Both programs spell it with the same host operations, so it is only named
  here and never opened.
-/
import proofs.«146616_j11510512353896_2_alg».proof.Proof.Gen.KernelIdeal

noncomputable section

namespace Cert.KernelIdeal.Aggregate

open Cert.KernelIdeal Cert.KernelIdeal.Facts₀ Idealize.ShloMosaic

variable {F : FTy → Type} [FloatOps F]

/-- The edges' source nodes as a column, a negative number counted from the last node. -/
def sources (cols : IVec S3200000 32) : IVec S3200000x1 32 :=
  broadcastInDim S3200000x1 ![0] bcast_S3200000_S3200000x1_0
    (select (cmpi .slt cols (broadcastInDim S3200000 ![] bcast_S_S3200000 (constantI S_ 32 0#32)))
      (addi cols (broadcastInDim S3200000 ![] bcast_S_S3200000 (constantI S_ 32 100000#32))) cols)

/-- The aggregation of a `[100000, 32]` array. -/
def aggregate32 (h : FVec F S100000x32 .f32) (rows cols : IVec S3200000 32) (vals : FVec F S3200000 .f32) :
    FVec F S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 rows)
    (mulf (broadcastInDim S3200000x32 ![0, 1] bcast_S3200000x1_S3200000x32_0_1
        (broadcastInDim S3200000x1 ![0] bcast_S3200000_S3200000x1_0 vals))
      (Host.gather gather_S100000x32_S3200000x1_S3200000x32_1_0_n_n_0_1_132 h (sources cols)))

/-- The aggregation of a `[100000, 16]` array. -/
def aggregate16 (h : FVec F S100000x16 .f32) (rows cols : IVec S3200000 32) (vals : FVec F S3200000 .f32) :
    FVec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 rows)
    (mulf (broadcastInDim S3200000x16 ![0, 1] bcast_S3200000x1_S3200000x16_0_1
        (broadcastInDim S3200000x1 ![0] bcast_S3200000_S3200000x1_0 vals))
      (Host.gather gather_S100000x16_S3200000x1_S3200000x16_1_0_n_n_0_1_116 h (sources cols)))

end Cert.KernelIdeal.Aggregate

end
-- ==== Proof.KernelValue.lean ====
/-
  The idealized kernel's result buffer, read back through the program.

  The buffers' contents at each boundary of the program are a fold from the launch memory. Read at the result buffer,
  the fold unwinds to: the third launch's row normalization, of the second host stretch's aggregation, of the second
  launch's rectified product, of the first host stretch's aggregation, of the first launch's product of the features
  with the weights — each launch by its whole-array form, each host stretch by evaluating its operations, the edge
  lists, edge values and weight matrices reaching every stage as launched because nothing writes them.
-/
import proofs.«146616_j11510512353896_2_alg».proof.Proof.Gen.KernelIdeal.Frame
import proofs.«146616_j11510512353896_2_alg».proof.Proof.Region0
import proofs.«146616_j11510512353896_2_alg».proof.Proof.Region1
import proofs.«146616_j11510512353896_2_alg».proof.Proof.Region2
import proofs.«146616_j11510512353896_2_alg».proof.Proof.Aggregate
import proofs.«146616_j11510512353896_2_alg».proof.Proof.Spec
import Idealize.ShloMosaic.Lib.StableHlo.Run

set_option maxRecDepth 16384

noncomputable section

namespace Cert.KernelIdeal.Fold

open Cert.KernelIdeal Cert.KernelIdeal.Gen Cert.GraphLayers Cert.KernelIdeal.Aggregate
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first launch -/

theorem W1_v0 (c : Dev nD) : W1 m ρ c (Proc.devRef .tc main_v0)
    = project1 (m ((c : Thread nD τ).loc main_arg0)) (m ((c : Thread nD τ).loc main_arg1)) :=
  (W1_arr m ρ c 2).trans (Region0.final (V0 m ρ) c)

theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

/-! ## After the first host stretch -/

theorem W2_v13 (c : Dev nD) : W2 m ρ c (Proc.devRef .tc main_v13)
    = aggregate32 (F := Ideal) (W1 m ρ c (Proc.devRef .tc main_v0)) (W1 m ρ c (Proc.devRef .tc main_arg3))
        (W1 m ρ c (Proc.devRef .tc main_arg4)) (W1 m ρ c (Proc.devRef .tc main_arg5)) := by
  show StableHlo.after hostOps1 (W1 m ρ c) (Proc.devRef .tc main_v13) = _
  after_results
  rfl

theorem W2_arg2 (c : Dev nD) : W2 m ρ c (Proc.devRef .tc main_arg2) = m ((c : Thread nD τ).loc main_arg2) := by
  show StableHlo.after hostOps1 (W1 m ρ c) (Proc.devRef .tc main_arg2) = _
  after_results
  exact W1_arg2 m ρ c
theorem W2_arg3 (c : Dev nD) : W2 m ρ c (Proc.devRef .tc main_arg3) = m ((c : Thread nD τ).loc main_arg3) := by
  show StableHlo.after hostOps1 (W1 m ρ c) (Proc.devRef .tc main_arg3) = _
  after_results
  exact W1_arg3 m ρ c
theorem W2_arg4 (c : Dev nD) : W2 m ρ c (Proc.devRef .tc main_arg4) = m ((c : Thread nD τ).loc main_arg4) := by
  show StableHlo.after hostOps1 (W1 m ρ c) (Proc.devRef .tc main_arg4) = _
  after_results
  exact W1_arg4 m ρ c
theorem W2_arg5 (c : Dev nD) : W2 m ρ c (Proc.devRef .tc main_arg5) = m ((c : Thread nD τ).loc main_arg5) := by
  show StableHlo.after hostOps1 (W1 m ρ c) (Proc.devRef .tc main_arg5) = _
  after_results
  exact W1_arg5 m ρ c

/-! ## After the second launch -/

theorem W3_v14 (c : Dev nD) : W3 m ρ c (Proc.devRef .tc main_v14)
    = project2 (W2 m ρ c (Proc.devRef .tc main_v13)) (W2 m ρ c (Proc.devRef .tc main_arg2)) :=
  (W3_arr m ρ c 2).trans (Region1.final (V2 m ρ) c)

theorem W3_arg3 (c : Dev nD) : W3 m ρ c (Proc.devRef .tc main_arg3) = m ((c : Thread nD τ).loc main_arg3) :=
  (W3_of_ne m ρ c main_arg3 (by decide)).trans (W2_arg3 m ρ c)
theorem W3_arg4 (c : Dev nD) : W3 m ρ c (Proc.devRef .tc main_arg4) = m ((c : Thread nD τ).loc main_arg4) :=
  (W3_of_ne m ρ c main_arg4 (by decide)).trans (W2_arg4 m ρ c)
theorem W3_arg5 (c : Dev nD) : W3 m ρ c (Proc.devRef .tc main_arg5) = m ((c : Thread nD τ).loc main_arg5) :=
  (W3_of_ne m ρ c main_arg5 (by decide)).trans (W2_arg5 m ρ c)

/-! ## After the second host stretch -/

theorem W4_v27 (c : Dev nD) : W4 m ρ c (Proc.devRef .tc main_v27)
    = aggregate16 (F := Ideal) (W3 m ρ c (Proc.devRef .tc main_v14)) (W3 m ρ c (Proc.devRef .tc main_arg3))
        (W3 m ρ c (Proc.devRef .tc main_arg4)) (W3 m ρ c (Proc.devRef .tc main_arg5)) := by
  show StableHlo.after hostOps2 (W3 m ρ c) (Proc.devRef .tc main_v27) = _
  after_results
  rfl

/-! ## After the third launch -/

theorem W5_v28 (c : Dev nD) : W5 m ρ c (Proc.devRef .tc main_v28)
    = rowNormalize (W4 m ρ c (Proc.devRef .tc main_v27)) :=
  (W5_arr m ρ c 1).trans (Region2.final (V4 m ρ) c)

/-- The result buffer at the program's end, as a function of the launch memory. -/
theorem result (c : Dev nD) : W5 m ρ c (Proc.devRef .tc main_v28)
    = rowNormalize (aggregate16 (F := Ideal)
        (project2
          (aggregate32 (F := Ideal) (project1 (m ((c : Thread nD τ).loc main_arg0)) (m ((c : Thread nD τ).loc main_arg1)))
            (m ((c : Thread nD τ).loc main_arg3)) (m ((c : Thread nD τ).loc main_arg4))
            (m ((c : Thread nD τ).loc main_arg5)))
          (m ((c : Thread nD τ).loc main_arg2)))
        (m ((c : Thread nD τ).loc main_arg3)) (m ((c : Thread nD τ).loc main_arg4))
        (m ((c : Thread nD τ).loc main_arg5))) := by
  rw [W5_v28, W4_v27, W3_v14, W3_arg3, W3_arg4, W3_arg5, W2_v13, W2_arg2, W1_v0, W1_arg3, W1_arg4, W1_arg5]

end Cert.KernelIdeal.Fold

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«146616_j11510512353896_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.LibHostRowSum.lean ====
/-
  The host's sum over the last axis of a matrix read at a row, at the exact (extended-real) values.

  Row `t` of an `[a, b]` array summed over its second axis by the host's reduction is the starting value's one element
  plus the sum of the entries `(t, s)`, `s` running over the `b` columns.
-/
import proofs.«146616_j11510512353896_2_alg».proof.Proof.LibRows
import Idealize.ShloMosaic.PureOps.Ideal.Laws
import Idealize.ShloMosaic.Lib.ValueIdx

open scoped BigOperators

namespace Idealize.ShloMosaic.ValueIdx

open Idealize.ShloMosaic

variable {φ : FTy}

/-- The host's row sum: the starting value plus the sum of the row's entries. -/
theorem hostRowSum_apply {a b : ℕ} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (t : Fin a) :
    Host.reduceAdd x init h' hu (ix1 t) = init ix0 + ∑ s : Fin b, x (ix2 t s) := by
  show Ideal.hostReduceAdd h' x (init (Shape.Idx.first hu)) (ix1 t) = _
  rw [Ideal.hostReduceAdd_single h' h, eq_ix0 (Shape.Idx.first hu)]
  refine congrArg (init ix0 + ·) ?_
  show ∑ s : Fin b, _ = _
  exact Finset.sum_congr rfl fun s _ => congrArg x (lift_last_ix2 h t s)

end Idealize.ShloMosaic.ValueIdx
-- ==== Proof.RefValue.lean ====
/-
  The reference's result as the three dense stages with the aggregation between them.

  The reference multiplies the features by the first weight matrix, aggregates over the edges, rectifies, multiplies
  by the second weight matrix, aggregates again, and divides every row by the larger of its length and a small positive
  float. Read index by index on the extended reals, each dense stage is the function the specification names: a host
  product is the sum of products, the rectifier is the maximum with the float zero's value, a row's length is the
  square root of the starting zero plus the sum of its squares.
-/
import proofs.«146616_j11510512353896_2_alg».proof.Proof.Gen.ReferenceIdeal.Run
import proofs.«146616_j11510512353896_2_alg».proof.Proof.Aggregate
import proofs.«146616_j11510512353896_2_alg».proof.Proof.Spec
import proofs.«146616_j11510512353896_2_alg».proof.Proof.LibHostDense
import proofs.«146616_j11510512353896_2_alg».proof.Proof.LibGcnLayer
import proofs.«146616_j11510512353896_2_alg».proof.Proof.LibHostRowSum
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.GraphLayers Cert.KernelIdeal.Aggregate
open Idealize.ShloMosaic Idealize.ShloMosaic.TcCoe Idealize.ShloMosaic.ValueIdx Idealize.SL.Sem
open scoped BigOperators

/-- The host's first product is features times weights. -/
theorem host_project1 (x : FVec Ideal S100000x512 .f32) (w : FVec Ideal S512x32 .f32) :
    Host.dotGeneral dot_S100000x512_S512x32_S100000x32_1_0_0_1_n_n none x w = project1 x w := by
  funext i
  obtain ⟨p, q, rfl⟩ : ∃ (p : Fin 100000) (q : Fin 32), i = ix2 p q := ⟨i 0, i 1, eq_ix2 i⟩
  exact Cert.LibHostDense.hostDot_plain_apply _ rfl rfl rfl rfl rfl rfl none x w p q

/-- The host's rectifier followed by its second product is the rectified product. -/
theorem host_project2 (z : FVec Ideal S100000x32 .f32) (w : FVec Ideal S32x16 .f32) :
    Host.dotGeneral dot_S100000x32_S32x16_S100000x16_1_0_0_1_n_n none
        (maximumf z (broadcastInDim S100000x32 ![] bcast_S_S100000x32 (constant (F := Ideal) S_ .f32 0x00000000#32))) w
      = project2 z w := by
  funext i
  obtain ⟨p, q, rfl⟩ : ∃ (p : Fin 100000) (q : Fin 16), i = ix2 p q := ⟨i 0, i 1, eq_ix2 i⟩
  refine (Cert.LibHostDense.hostDot_plain_apply _ rfl rfl rfl rfl rfl rfl none _ w p q).trans ?_
  refine (Finset.sum_congr rfl fun k _ => ?_).trans (project2_apply z w p q).symm
  rw [maximumf_apply, Cert.LibHostDense.bcastScalar_apply, constant_apply]

/-- The host's clamped row length, repeated along the row, at `(p, q)`: the square root of the starting zero plus the
    row's sum of squares, or the clamp if that is larger. -/
theorem host_clamped_length_apply (z : FVec Ideal S100000x16 .f32) (p : Fin 100000) (q : Fin 16) :
    broadcastInDim S100000x16 ![0, 1] bcast_S100000x1_S100000x16_0_1
        (maximumf (Host.sqrt (broadcastInDim S100000x1 ![0] bcast_S100000_S100000x1_0
            (Host.reduceAdd (mulf z z) (constant (F := Ideal) S_ .f32 0x00000000#32) reducesTo_S100000x16_S100000_d1 h_S_)))
          (broadcastInDim S100000x1 ![] bcast_S_S100000x1 (constant (F := Ideal) S_ .f32 0x33D6BF95#32))) (ix2 p q)
      = max (Ideal.sqrt (∑ j : Fin 16, z (ix2 p j) * z (ix2 p j))) (Ideal.ofBits .f32 0x33D6BF95#32) := by
  refine (Cert.LibGcnLayer.bcastCols_apply _ bcast_S100000x1_S100000x16_0_1 p q).trans ?_
  rw [maximumf_apply, Cert.LibHostDense.bcastScalar_apply, constant_apply]
  simp only [Host.sqrt, Ideal.hostUnary_sqrt_def]
  rw [Cert.LibGcnLayer.bcastCol_apply _ bcast_S100000_S100000x1_0 p (0 : Fin 1),
    hostRowSum_apply (mulf z z) _ reducesTo_S100000x16_S100000_d1 (by decide) h_S_ p, constant_apply,
    Ideal.ofBits_zero_f32, zero_add]
  rfl

/-- The host's row lengths, clamp and division are the row normalization. -/
theorem host_rowNormalize (z : FVec Ideal S100000x16 .f32) :
    Host.divf z (broadcastInDim S100000x16 ![0, 1] bcast_S100000x1_S100000x16_0_1
        (maximumf (Host.sqrt (broadcastInDim S100000x1 ![0] bcast_S100000_S100000x1_0
            (Host.reduceAdd (mulf z z) (constant (F := Ideal) S_ .f32 0x00000000#32) reducesTo_S100000x16_S100000_d1 h_S_)))
          (broadcastInDim S100000x1 ![] bcast_S_S100000x1 (constant (F := Ideal) S_ .f32 0x33D6BF95#32))))
      = rowNormalize z := by
  funext i
  obtain ⟨p, q, rfl⟩ : ∃ (p : Fin 100000) (q : Fin 16), i = ix2 p q := ⟨i 0, i 1, eq_ix2 i⟩
  simp only [Host.divf, Ideal.hostDivf_def]
  rw [host_clamped_length_apply z p q]
  rfl

/-- The reference's result: the row normalization of the second aggregation of the rectified product of the first
    aggregation of features times weights. -/
theorem result_eq (m : (ℓ : Loc nD τ sig) → Buf (Elt Ideal) ℓ) (c : Dev nD) :
    Value.res_main_v33 (F := Ideal) m c
      = rowNormalize (aggregate16 (F := Ideal)
          (project2
            (aggregate32 (F := Ideal) (project1 (m ((c.tc : Thread nD τ).loc main_arg0)) (m ((c.tc : Thread nD τ).loc main_arg1)))
              (m ((c.tc : Thread nD τ).loc main_arg3)) (m ((c.tc : Thread nD τ).loc main_arg4))
              (m ((c.tc : Thread nD τ).loc main_arg5)))
            (m ((c.tc : Thread nD τ).loc main_arg2)))
          (m ((c.tc : Thread nD τ).loc main_arg3)) (m ((c.tc : Thread nD τ).loc main_arg4))
          (m ((c.tc : Thread nD τ).loc main_arg5))) := by
  rw [← host_rowNormalize, ← host_project2, ← host_project1]
  unfold Value.res_main_v33 aggregate16 aggregate32 sources
  rfl

end Cert.ReferenceIdeal.RefValue

end
-- ==== Proof.lean ====
/-
  A two-layer graph network with row-normalized output: the tiled kernel against the plain reference, on the extended
  reals.

  Both programs compute, for node features `X`, weight matrices `W1`, `W2` and a weighted edge list,
  `normalize (A (relu (A (X · W1)) · W2))`, where `A` adds `val · h (col, ·)` onto row `row` for every edge and `normalize`
  divides each row by the larger of its Euclidean length and a fixed small positive float. The reference does each
  dense stage on whole arrays; the kernel does each in 50 blocks of 2000 rows, one launch per stage, and runs the same
  host operations for `A` between the launches. Every dense stage acts on each row by itself — a row of a matrix
  product, of the rectifier and of the normalization depends on that row of the operand only — so a block of the stage's
  result is the stage applied to the block, the blocks tile the result, and each launch leaves the whole-array stage.
  With the aggregation the same function on both sides, the two results are one function of the inputs; no law that needs
  finite values is used, only that a product into a zero accumulator and a sum started from zero are the plain sums.

  The three frames are the generated ones (the reference's is its generated run with the result dropped); the kernel's
  idealization rewrote nothing, so there is nothing to preserve.
-/
import proofs.«146616_j11510512353896_2_alg».proof.Defs
import proofs.«146616_j11510512353896_2_alg».proof.Proof.Gen.Kernel
import proofs.«146616_j11510512353896_2_alg».proof.Proof.Gen.Kernel.Frame
import proofs.«146616_j11510512353896_2_alg».proof.Proof.Gen.KernelIdeal
import proofs.«146616_j11510512353896_2_alg».proof.Proof.Gen.KernelIdeal.Frame
import proofs.«146616_j11510512353896_2_alg».proof.Proof.Gen.ReferenceIdeal
import proofs.«146616_j11510512353896_2_alg».proof.Proof.Gen.Pre_finite_inputs
import proofs.«146616_j11510512353896_2_alg».proof.Proof.Gen.ReferenceIdeal.Run
import proofs.«146616_j11510512353896_2_alg».proof.Proof.KernelRun
import proofs.«146616_j11510512353896_2_alg».proof.Proof.KernelValue
import proofs.«146616_j11510512353896_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the inputs both programs end with the result buffer at the same function of the inputs:
    the kernel's by reading its run back through the launches and host stretches, the reference's by reading its
    operations' composed term stage by stage. -/
theorem algebraic : Cert.algebraic_KernelIdeal_ReferenceIdeal := by
  intro m ρ m' ρ' _ hagree
  refine ⟨fun c => Cert.KernelIdeal.Gen.W5 m ρ c (Proc.devRef .tc Cert.KernelIdeal.main_v28),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  show Cert.ReferenceIdeal.Value.res_main_v33 (F := Ideal) m' c
    = Cert.KernelIdeal.Gen.W5 m ρ c (Proc.devRef .tc Cert.KernelIdeal.main_v28)
  rw [Cert.ReferenceIdeal.RefValue.result_eq m' c, Cert.KernelIdeal.Fold.result m ρ c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
